-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S16x2048 : Shape := ⟨2, ![16, 2048]⟩
abbrev S16x128x2048 : Shape := ⟨3, ![16, 128, 2048]⟩
abbrev S16x128 : Shape := ⟨2, ![16, 128]⟩
abbrev S8x128x2048 : Shape := ⟨3, ![8, 128, 2048]⟩
abbrev S8x2048 : Shape := ⟨2, ![8, 2048]⟩
abbrev S8x128 : Shape := ⟨2, ![8, 128]⟩
abbrev S8x128x1 : Shape := ⟨3, ![8, 128, 1]⟩
abbrev S8x1x2048 : Shape := ⟨3, ![8, 1, 2048]⟩

abbrev nBuf : Space → Nat
  | .hbm => 3
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .f32⟩
  | .hbm, ⟨2, _⟩ => ⟨S16x2048x2048, .f32⟩
  | .local _ .vmem, ⟨0, _⟩ => ⟨S16x128x2048, .f32⟩
  | .local _ .vmem, ⟨1, _⟩ => ⟨S16x128x2048, .f32⟩
  | .local _ .vmem, ⟨2, _⟩ => ⟨S16x128, .f32⟩
  | .local _ .vmem, ⟨3, _⟩ => ⟨S16x128, .f32⟩
  | .local _ .vmem, ⟨4, _⟩ => ⟨S8x128x2048, .f32⟩
  | .local _ .vmem, ⟨5, _⟩ => ⟨S8x128x2048, .f32⟩
  | .local _ .vmem, ⟨6, _⟩ => ⟨S8x2048, .f32⟩
  | .local _ .vmem, ⟨7, _⟩ => ⟨S8x2048, .f32⟩
  | .local _ .vmem, ⟨8, _⟩ => ⟨S8x128x2048, .f32⟩
  | .local _ .vmem, ⟨9, _⟩ => ⟨S8x128x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S16x128x2048_S16x128x2048_0_0_0 : ∀ a, (![0, 0, 0] : Fin 3 → Nat) a + S16x128x2048.size a ≤ S16x128x2048.size a
  h_S16x128x2048 : 0 < S16x128x2048.numel
  reduces_S16x128x2048_S16x128 : S16x128x2048.Reduces [2] S16x128
  inb_S16x128_S16x128_0_0 : ∀ a, (![0, 0] : Fin 2 → Nat) a + S16x128.size a ≤ S16x128.size a
  h_S16x128 : 0 < S16x128.numel
  inb_S8x128x2048_S8x128x2048_0_0_0 : ∀ a, (![0, 0, 0] : Fin 3 → Nat) a + S8x128x2048.size a ≤ S8x128x2048.size a
  h_S8x128x2048 : 0 < S8x128x2048.numel
  reduces_S8x128x2048_S8x128 : S8x128x2048.Reduces [2] S8x128
  shapeCasts_S8x128_S8x128x1 : S8x128.ShapeCasts S8x128x1
  broadcasts_S8x128x1_S8x128x2048 : S8x128x1.Broadcasts S8x128x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S8x2048_S8x1x2048 : S8x2048.ShapeCasts S8x1x2048
  broadcasts_S8x1x2048_S8x128x2048 : S8x1x2048.Broadcasts S8x128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x2048.size a ≤ S16x2048x2048.size a
  hwx0_0 : ∀ i : grid0.Coords, EltTy.bits .f32 = 32 ∨ (Rect.block (s := S16x2048x2048) S16x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x2048.size a
  hwx0_1 : ∀ i : grid0.Coords, EltTy.bits .f32 = 32 ∨ (Rect.block (s := S16x2048) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x2048.size a ≤ S16x2048x2048.size a
  hwx1_0 : ∀ i : grid1.Coords, EltTy.bits .f32 = 32 ∨ (Rect.block (s := S16x2048x2048) S8x128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2048.size a ≤ S16x2048.size a
  hwx1_1 : ∀ i : grid1.Coords, EltTy.bits .f32 = 32 ∨ (Rect.block (s := S16x2048) S8x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x2048.size a ≤ S16x2048x2048.size a
  hwx1_2 : ∀ i : grid1.Coords, EltTy.bits .f32 = 32 ∨ (Rect.block (s := S16x2048x2048) S8x128x2048.size (cc1_transform_2 i) (hinb1_2 i)).WholeWords (EltTy.packing .f32)

variable [Facts₀]

abbrev win0_0 : Pipeline.Window sig grid0 :=
  Pipeline.Window.ofSpec (Memref.whole main_arg0) S16x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S16x2048, .f32⟩
  | .hbm, ⟨4, _⟩ => ⟨S16x2048x1, .f32⟩
  | .hbm, ⟨5, _⟩ => ⟨S16x2048x2048, .f32⟩
  | .hbm, ⟨6, _⟩ => ⟨S16x2048x2048, .f32⟩
  | .hbm, ⟨7, _⟩ => ⟨S16x1x2048, .f32⟩
  | .hbm, ⟨8, _⟩ => ⟨S16x2048x2048, .f32⟩
  | .hbm, ⟨9, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)

variable [Facts₀]

class Facts : Prop extends Facts₀ where

variable [Facts]
-- ==== Proof.Spec.lean ====
/-
  Symmetric degree normalisation of a batch of square matrices, written as ONE function of the argument array.

  For a batch `b` and a row `r` the DEGREE is the row sum `Σ_k x[b, r, k]`, and `invRoot x b r` is its inverse
  square root on the extended reals. The normalised array holds, at `(b, i, j)`,
      `x[b, i, j] · invRoot x b i · invRoot x b j`,
  the row factor applied first and the column factor second (the products are taken in that order on both sides of
  the comparison, so no law of the extended reals beyond `0 + s = s` is ever needed, and no finiteness).
  `degVec x` is the vector of all inverse root degrees, and `scaleBy x d` scales `x` by its own row factor and by a
  GIVEN column vector `d`; `scaleBy x (degVec x)` is the normalised array.
-/
import Idealize.ShloMosaic.PureOps.Ideal
import Idealize.ShloMosaic.Lib.ValueIdx

noncomputable section

open scoped BigOperators

namespace Cert.AdjNorm

open Idealize.ShloMosaic Idealize.ShloMosaic.ValueIdx

/-- The batch of matrices, and the batch of vectors (one entry per row). -/
abbrev Mats : Shape := ⟨3, ![16, 2048, 2048]⟩
abbrev Rows : Shape := ⟨2, ![16, 2048]⟩

/-- The inverse square root of row `r`'s sum in batch `b`. -/
def invRoot (x : Mats.Idx → EReal) (b : Fin 16) (r : Fin 2048) : EReal :=
  Ideal.rsqrt (∑ k : Fin 2048, x (ix3 b r k))

/-- All inverse root degrees, as a `[16, 2048]` vector. -/
def degVec (x : Mats.Idx → EReal) : Rows.Idx → EReal :=
  fun j => invRoot x (j 0) (j 1)

/-- `x` scaled by its own row factor, then by the entry of a given vector `d` at the column. -/
def scaleBy (x : Mats.Idx → EReal) (d : Rows.Idx → EReal) : Mats.Idx → EReal :=
  fun i => x i * invRoot x (i 0) (i 1) * d (ix2 (i 0) (i 2))

/-- The normalised array: both factors are the array's own inverse root degrees. -/
def normalized (x : Mats.Idx → EReal) : Mats.Idx → EReal :=
  fun i => x i * invRoot x (i 0) (i 1) * invRoot x (i 0) (i 2)

/-- Scaling by the array's own degree vector is the normalisation. -/
theorem scaleBy_degVec (x : Mats.Idx → EReal) : scaleBy x (degVec x) = normalized x := rfl

end Cert.AdjNorm

end
-- ==== Proof.RefValue.lean ====
/-
  The reference's result, read one operation at a time, is the normalised array.

  The reference sums each row from the zero word (`0 + Σ_k x[b, r, k]`, and `0 + s = s`), takes the inverse square
  root, and multiplies `x` first by that vector spread along the lanes (entry `(b, i, j)` reads the vector at `(b, i)`)
  and then by the same vector spread down the rows (entry `(b, i, j)` reads it at `(b, j)`). Read at `(b, i, j)` this is
  `x[b, i, j] · invRoot x b i · invRoot x b j`, with the products in the specification's order.
-/
import proofs.«120717_j35759897706670_2_alg».proof.Proof.Gen.ReferenceIdeal.Read
import proofs.«120717_j35759897706670_2_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.AdjNorm

/-- Through the lane spread, entry `(b, r, l)` sums the argument's row `(b, r)`. -/
theorem row_factor_index (b : Fin 16) (r l k : Fin 2048) :
    idx_main_v0 (idx_main_v2 (idx_main_v3 (ix3 b r l))) k = ix3 b r k :=
  funext fun a => Fin.ext (by match a with | ⟨0, _⟩ => rfl | ⟨1, _⟩ => rfl | ⟨2, _⟩ => rfl)

/-- Through the row spread, entry `(b, r, l)` sums the argument's row `(b, l)`. -/
theorem col_factor_index (b : Fin 16) (r l k : Fin 2048) :
    idx_main_v0 (idx_main_v5 (idx_main_v6 (ix3 b r l))) k = ix3 b l k :=
  funext fun a => Fin.ext (by match a with | ⟨0, _⟩ => rfl | ⟨1, _⟩ => rfl | ⟨2, _⟩ => rfl)

/-- The reference's last stage is the normalised array of its argument. -/
theorem reference_eq (x : (⟨S16x2048x2048, .f32⟩ : BufTy).Contents (Elt Ideal)) :
    val_main_v7 (F := Ideal) x = normalized x := by
  funext i
  obtain ⟨b, r, l, rfl⟩ : ∃ (b : Fin 16) (r l : Fin 2048), i = ix3 b r l := ⟨i 0, i 1, i 2, eq_ix3 i⟩
  rw [val_main_v7_apply, val_main_v4_apply, val_main_v3_apply, val_main_v2_apply, val_main_v1_apply, val_main_v0_apply,
    val_main_v6_apply, val_main_v5_apply, val_main_v1_apply, val_main_v0_apply, val_main_cst_apply]
  simp only [row_factor_index, col_factor_index, Ideal.mulf_def, Ideal.hostUnary_rsqrt_def, Ideal.ofBits_def,
    Ideal.ofBits_zero_f32, zero_add]
  rfl

end Cert.ReferenceIdeal.RefValue

end
-- ==== Proof.LibUnitAxisLayout.lean ====
/-
  Two keepdims layouts read at an index, at any extents: a matrix `[a, b]` given a unit axis in the LAST place
  (`[a, b, 1]`) or in the MIDDLE (`[a, 1, b]`) by a shape cast, and such an array broadcast along its unit axis to
  `[a, b, c]` / `[a, c, b]`. A shape cast keeps the row-major position, and a unit axis contributes nothing to it, so
  the cast reads the matrix at the two remaining coordinates; the broadcast reads its operand at coordinate `0` of the
  unit axis. Composed: a per-row scalar spread along the lanes, and a per-lane row spread down the rows.
-/
import Idealize.ShloMosaic.Lib.ValueIdx
import Idealize.ShloMosaic.Lib.Pipeline.Value

noncomputable section

namespace Idealize.ShloMosaic.UnitAxisLayout

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by
        show i.val = if a = 1 then 0 else i.val
        have := i.isLt; split <;> omega
    | ⟨1, _⟩ => by
        show j.val = if b = 1 then 0 else j.val
        have := j.isLt; split <;> omega
    | ⟨2, _⟩ => by
        show 0 = if (1 : Nat) = 1 then 0 else k.val
        rw [if_pos rfl])

/-- An `[a, 1, b]` array broadcast to `[a, c, b]` reads, at `(i, k, j)`, the operand at `(i, 0, j)`. -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) :=
  broadcastTo_apply x h _ _ (fun d => match d with
    | ⟨0, _⟩ => by
        show i.val = if a = 1 then 0 else i.val
        have := i.isLt; split <;> omega
    | ⟨1, _⟩ => by
        show 0 = if (1 : Nat) = 1 then 0 else k.val
        rw [if_pos rfl]
    | ⟨2, _⟩ => by
        show j.val = if b = 1 then 0 else j.val
        have := j.isLt; split <;> omega)

/-- A per-row scalar spread along the lanes: `[a, b]` cast to `[a, b, 1]` and broadcast to `[a, b, c]` reads, at
    `(i, j, k)`, the matrix at `(i, j)`. -/
theorem spread_lanes_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- A per-lane row spread down the rows: `[a, b]` cast to `[a, 1, b]` and broadcast to `[a, c, b]` reads, at
    `(i, k, j)`, the matrix at `(i, j)`. -/
theorem spread_rows_apply {a b c : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (k : Fin c) (j : Fin b) :
    broadcastTo ⟨3, ![a, c, b]⟩ (shapeCast ⟨3, ![a, 1, b]⟩ x hc) hb (ix3 i k j) = x (ix2 i j) :=
  (broadcastTo_a1b_acb_apply _ hb i k j).trans (shapeCast_ab_a1b_apply x hc i 0 j)

end Idealize.ShloMosaic.UnitAxisLayout

end
-- ==== Proof.Payload.lean ====
/-
  The two kernel bodies' arithmetic read at one element, on the extended reals.

  The first body sums each row of its block along the lanes and takes the inverse square root: at `(b, q)` it is the
  inverse root of `Σ_k x[b, q, k]`. The second body recomputes the same row factor from its own block of the matrix,
  spreads it along the lanes, spreads the column vector it was handed down the rows, and multiplies: at `(p, q, l)`
  it is `x[p, q, l] · (Σ_k x[p, q, k])^(-1/2) · d[p, l]`, the row factor first. A lane sum started from the zero
  word is the plain sum (the additive neutral contributes nothing).
-/
import proofs.«120717_j35759897706670_2_alg».proof.Proof.Gen.KernelIdeal.Skeleton
import proofs.«120717_j35759897706670_2_alg».proof.Proof.LibUnitAxisLayout
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx
open Idealize.ShloMosaic.UnitAxisLayout

/-- The lane sum of a `[16, 128, 2048]` block at row `(b, q)`. -/
theorem laneSum16 (x0 : Vec Ideal S16x128x2048 .f32) (b : Fin 16) (q : Fin 128) :
    multiReduction (F := Ideal) .add [2] S16x128 x0 0x00000000#32 reduces_S16x128x2048_S16x128 (.inl rfl) rfl (ix2 b q)
      = ∑ k : Fin 2048, x0 (ix3 b q k) := by
  refine (Ideal.multiReduction_add_single x0 0x00000000#32 reduces_S16x128x2048_S16x128 (.inl rfl) rfl (ix2 b q)).trans ?_
  exact Finset.sum_congr rfl fun k _ => congrArg x0 (funext fun a => Fin.ext (by
    match a with | ⟨0, _⟩ => rfl | ⟨1, _⟩ => rfl | ⟨2, _⟩ => rfl))

/-- The lane sum of an `[8, 128, 2048]` block at row `(p, q)`. -/
theorem laneSum8 (x0 : Vec Ideal S8x128x2048 .f32) (p : Fin 8) (q : Fin 128) :
    multiReduction (F := Ideal) .add [2] S8x128 x0 0x00000000#32 reduces_S8x128x2048_S8x128 (.inl rfl) rfl (ix2 p q)
      = ∑ k : Fin 2048, x0 (ix3 p q k) := by
  refine (Ideal.multiReduction_add_single x0 0x00000000#32 reduces_S8x128x2048_S8x128 (.inl rfl) rfl (ix2 p q)).trans ?_
  exact Finset.sum_congr rfl fun k _ => congrArg x0 (funext fun a => Fin.ext (by
    match a with | ⟨0, _⟩ => rfl | ⟨1, _⟩ => rfl | ⟨2, _⟩ => rfl))

/-- What the degree body stores at `(b, q)`: the inverse root of row `(b, q)`'s sum. -/
theorem degree_payload_apply (x0 : Vec Ideal S16x128x2048 .f32) (b : Fin 16) (q : Fin 128) :
    k0_pay1 (F := Ideal) x0 (ix2 b q) = Ideal.rsqrt (∑ k : Fin 2048, x0 (ix3 b q k)) := by
  unfold k0_pay1
  exact congrArg Ideal.rsqrt (laneSum16 x0 b q)

/-- What the scaling body stores at `(p, q, l)`: the entry of its second load times the row factor recomputed from its
    first load, then times the handed column vector's entry at `(p, l)`. -/
theorem scale_payload_apply (x0 x3 : Vec Ideal S8x128x2048 .f32) (x7 : Vec Ideal S8x2048 .f32)
    (p : Fin 8) (q : Fin 128) (l : Fin 2048) :
    k1_pay1 (F := Ideal) x0 x3 x7 (ix3 p q l)
      = x3 (ix3 p q l) * Ideal.rsqrt (∑ k : Fin 2048, x0 (ix3 p q k)) * x7 (ix2 p l) := by
  unfold k1_pay1
  refine (mulf_apply _ _ _).trans ?_
  refine congrArg₂ (· * ·) ((mulf_apply _ _ _).trans (congrArg₂ (· * ·) rfl ?_)) ?_
  · refine (spread_lanes_apply _ shapeCasts_S8x128_S8x128x1 broadcasts_S8x128x1_S8x128x2048 p q l).trans ?_
    exact congrArg Ideal.rsqrt (laneSum8 x0 p q)
  · refine (spread_rows_apply _ shapeCasts_S8x2048_S8x1x2048 broadcasts_S8x1x2048_S8x128x2048 p q l).trans ?_
    rw [shapeCast_self]

end Cert.KernelIdeal.Hand

end
-- ==== Proof.Degrees.lean ====
/-
  The first pallas_call, from blocks to the array: whatever array `x` it finds in the argument's buffer, it leaves the
  vector of inverse root degrees `degVec x` in its result buffer.

  Grid point `t` stages rows `128 t … 128 t + 127` of every batch (a `[16, 128, 2048]` block, all 2048 lanes of each
  row, so a row's sum is never split between points) and writes back entries `128 t … 128 t + 127` of every batch of
  the result vector. Entry `(b, q)` of that block is the inverse root of the block's row `(b, q)`, which is the
  argument's row `(b, 128 t + q)`: the block written back is the same block of `degVec x`. The sixteen blocks tile the
  `[16, 2048]` vector (entry `(b, r)` lies in block `r / 128`), so the array ends holding `degVec x`.
-/
import proofs.«120717_j35759897706670_2_alg».proof.Proof.Gen.KernelIdeal.Frame
import proofs.«120717_j35759897706670_2_alg».proof.Proof.Spec
import proofs.«120717_j35759897706670_2_alg».proof.Proof.Payload
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.AdjNorm
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The first call's index maps over its sixteen points: the matrix block and the vector block move together along
    the row axis and sit at block 0 on every other axis. -/
theorem degree_index_maps : ∀ t : Fin cfg0.N, win0_0.index t (0 : Fin 3) = 0
    ∧ win0_0.index t (1 : Fin 3) = win0_1.index t (1 : Fin 2)
    ∧ win0_0.index t (2 : Fin 3) = 0
    ∧ win0_1.index t (0 : Fin 2) = 0 :=
  (by decide +kernel : ∀ t : Fin grid0.N, _)

/-- Every one of the sixteen row blocks of the result vector is some point's. -/
theorem degree_blocks_onto : ∀ q : Fin 16, ∃ t : Fin cfg0.N, win0_1.index t = ![0, q.val] :=
  (by decide +kernel : ∀ q : Fin 16, ∃ t : Fin grid0.N, win0_1.index t = ![0, q.val])

/-- The matrix block at point `t`, read at `y`, is the array at the index whose coordinates are the block's
    offsets plus `y`'s. -/
theorem degree_matrix_block (c : Dev nD) (t : Fin cfg0.N) (y : S16x128x2048.Idx) (i : S16x2048x2048.Idx)
    (h0 : (i 0).val = win0_0.index t (0 : Fin 3) * 16 + (y 0).val)
    (h1 : (i 1).val = win0_0.index t (1 : Fin 3) * 128 + (y 1).val)
    (h2 : (i 2).val = win0_0.index t (2 : Fin 3) * 2048 + (y 2).val) :
    (iblk0 V c 0 t : Vec Ideal S16x128x2048 .f32) y = V c main_arg0 i := by
  show V c main_arg0 (((cfg0.win 0).blk t).view.emb y) = V c main_arg0 i
  refine congrArg (V c main_arg0) (funext fun a => Fin.ext ?_)
  match a with
  | ⟨0, _⟩ => show win0_0.index t (0 : Fin 3) * 16 + 1 * (y 0).val = (i 0).val; omega
  | ⟨1, _⟩ => show win0_0.index t (1 : Fin 3) * 128 + 1 * (y 1).val = (i 1).val; omega
  | ⟨2, _⟩ => show win0_0.index t (2 : Fin 3) * 2048 + 1 * (y 2).val = (i 2).val; omega

/-- What point `t` writes back is block `t` of the degree vector of the array the call finds. -/
theorem degrees_flushed (c : Dev nD) (t : Fin cfg0.N) :
    (dat0 V c).flushed 1 t = ((cfg0.win 1).blk t).view.read (Elt Ideal) (degVec (V c main_arg0)) := by
  show (cfg0.win 1).cut (grid0.coords t) ((dat0 V c).after 1 t) = _
  rw [after0_1]
  unfold out0_1
  rw [View.canon_unit_zero zero_offsets2]
  simp only [View.ld_unit_zero (S := S16x128x2048) zero_offsets3]
  obtain ⟨e0, e1, e2, e3⟩ := degree_index_maps t
  funext j
  obtain ⟨b, q, rfl⟩ : ∃ (b : Fin 16) (q : Fin 128), j = ix2 b q := ⟨j 0, j 1, eq_ix2 (n0 := 16) (n1 := 128) j⟩
  show k0_pay1 (iblk0 V c 0 t) (ix2 b q) = degVec (V c main_arg0) (((cfg0.win 1).blk t).view.emb (ix2 b q))
  refine (degree_payload_apply (iblk0 V c 0 t) b q).trans ?_
  unfold degVec invRoot
  refine congrArg Ideal.rsqrt (Finset.sum_congr rfl fun k _ => ?_)
  refine degree_matrix_block V c t (ix3 b q k) _ ?_ ?_ ?_
  · show win0_1.index t (0 : Fin 2) * 16 + 1 * b.val = win0_0.index t (0 : Fin 3) * 16 + b.val; omega
  · show win0_1.index t (1 : Fin 2) * 128 + 1 * q.val = win0_0.index t (1 : Fin 3) * 128 + q.val; omega
  · show k.val = win0_0.index t (2 : Fin 3) * 2048 + k.val; omega

/-- An entry of the result vector lies in point `t`'s block iff each coordinate is in the block's range. -/
theorem degrees_mem_block (t : Fin cfg0.N) (i : S16x2048.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v0).slice (win0_1.rect t)).set ↔ _
  rw [View.set_slice_whole, Rect.mem_set_unit]
  exact Iff.rfl

/-- The blocks tile the vector: entry `(b, r)` is in the block of the point at row block `r / 128`. -/
theorem degrees_cover (i : S16x2048.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  obtain ⟨t, ht⟩ := degree_blocks_onto ⟨(i 1).val / 128, by omega⟩
  have q0 : win0_1.index t (0 : Fin 2) = 0 := congrFun ht 0
  have q1 : win0_1.index t (1 : Fin 2) = (i 1).val / 128 := congrFun ht 1
  refine ⟨t, flush0_1 t, ?_⟩
  rw [degrees_mem_block]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 128 ≤ (i 1).val ∧ (i 1).val < win0_1.index t (1 : Fin 2) * 128 + 128; omega

/-- After the first call its result array is the degree vector of the array it found in the argument's buffer. -/
theorem degrees_final (c : Dev nD) : (dat0 V c).arrAt 1 cfg0.N = degVec (V c main_arg0) :=
  (dat0 V c).arrAt_eq_of_cover 1 (degVec (V c main_arg0)) (fun t _ => degrees_flushed V c t) degrees_cover

end Cert.KernelIdeal.Hand

end
-- ==== Proof.Scaled.lean ====
/-
  The second pallas_call, from blocks to the array: whatever matrix array `x` and vector array `d` it finds in its two
  operands' buffers, it leaves `scaleBy x d` in its result buffer — `x[b, i, j]` times the inverse root of row
  `(b, i)`'s sum (recomputed from the staged rows themselves) times `d[b, j]`.

  The grid is 2 × 16: point `t` stages batches `8 g … 8 g + 7` and rows `128 h … 128 h + 127` of the matrix (all 2048
  lanes), the whole rows `8 g … 8 g + 7` of the vector, and writes back the block of the result at the matrix block's
  place. Entry `(p, q, l)` of the written block reads the matrix block at `(p, q, l)` and along row `(p, q)`, and the
  vector block at `(p, l)`; these are the arrays at `(8 g + p, 128 h + q, ·)` and `(8 g + p, l)`, so the block is the
  same block of `scaleBy x d`. The 32 blocks tile the `[16, 2048, 2048]` array (entry `(b, i, j)` lies in the block at
  batch block `b / 8`, row block `i / 128`), so the array ends holding `scaleBy x d`.
-/
import proofs.«120717_j35759897706670_2_alg».proof.Proof.Gen.KernelIdeal.Frame
import proofs.«120717_j35759897706670_2_alg».proof.Proof.Spec
import proofs.«120717_j35759897706670_2_alg».proof.Proof.Payload
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.AdjNorm
open Idealize.ShloMosaic.Pipeline (Dat)

variable (V : (c : Dev nD) → (b : Ref sig .tc) → Buf (Elt Ideal) ((c : Thread nD τ).loc b))

theorem no_offsets2 : (![0, 0] : Fin 2 → Nat) = fun _ => 0 := funext fun a => by fin_cases a <;> rfl
theorem no_offsets3 : (![0, 0, 0] : Fin 3 → Nat) = fun _ => 0 := funext fun a => by fin_cases a <;> rfl

/-- The second call's index maps over its 32 points: the staged matrix block sits where the written block does, on
    lane block 0; the staged vector block is the written block's batch block, whole rows. -/
theorem scale_index_maps : ∀ t : Fin cfg1.N, win1_0.index t (0 : Fin 3) = win1_2.index t (0 : Fin 3)
    ∧ win1_0.index t (1 : Fin 3) = win1_2.index t (1 : Fin 3)
    ∧ win1_0.index t (2 : Fin 3) = 0
    ∧ win1_2.index t (2 : Fin 3) = 0
    ∧ win1_1.index t (0 : Fin 2) = win1_2.index t (0 : Fin 3)
    ∧ win1_1.index t (1 : Fin 2) = 0 :=
  (by decide +kernel : ∀ t : Fin grid1.N, _)

/-- Every one of the 2 × 16 blocks of the result array is some point's. -/
theorem scale_blocks_onto : ∀ (g : Fin 2) (h : Fin 16), ∃ t : Fin cfg1.N, win1_2.index t = ![g.val, h.val, 0] :=
  (by decide +kernel : ∀ (g : Fin 2) (h : Fin 16), ∃ t : Fin grid1.N, win1_2.index t = ![g.val, h.val, 0])

/-- The matrix block at point `t`, read at `y`, is the matrix array at the block's offsets plus `y`'s coordinates. -/
theorem scale_matrix_block (c : Dev nD) (t : Fin cfg1.N) (y : S8x128x2048.Idx) (i : S16x2048x2048.Idx)
    (h0 : (i 0).val = win1_0.index t (0 : Fin 3) * 8 + (y 0).val)
    (h1 : (i 1).val = win1_0.index t (1 : Fin 3) * 128 + (y 1).val)
    (h2 : (i 2).val = win1_0.index t (2 : Fin 3) * 2048 + (y 2).val) :
    (iblk1 V c 0 t : Vec Ideal S8x128x2048 .f32) y = V c main_arg0 i := by
  show V c main_arg0 (((cfg1.win 0).blk t).view.emb y) = V c main_arg0 i
  refine congrArg (V c main_arg0) (funext fun a => Fin.ext ?_)
  match a with
  | ⟨0, _⟩ => show win1_0.index t (0 : Fin 3) * 8 + 1 * (y 0).val = (i 0).val; omega
  | ⟨1, _⟩ => show win1_0.index t (1 : Fin 3) * 128 + 1 * (y 1).val = (i 1).val; omega
  | ⟨2, _⟩ => show win1_0.index t (2 : Fin 3) * 2048 + 1 * (y 2).val = (i 2).val; omega

/-- The vector block at point `t`, read at `y`, is the vector array at the block's offsets plus `y`'s coordinates. -/
theorem scale_vector_block (c : Dev nD) (t : Fin cfg1.N) (y : S8x2048.Idx) (i : S16x2048.Idx)
    (h0 : (i 0).val = win1_1.index t (0 : Fin 2) * 8 + (y 0).val)
    (h1 : (i 1).val = win1_1.index t (1 : Fin 2) * 2048 + (y 1).val) :
    (iblk1 V c 1 t : Vec Ideal S8x2048 .f32) y = V c main_v0 i := by
  show V c main_v0 (((cfg1.win 1).blk t).view.emb y) = V c main_v0 i
  refine congrArg (V c main_v0) (funext fun a => Fin.ext ?_)
  match a with
  | ⟨0, _⟩ => show win1_1.index t (0 : Fin 2) * 8 + 1 * (y 0).val = (i 0).val; omega
  | ⟨1, _⟩ => show win1_1.index t (1 : Fin 2) * 2048 + 1 * (y 1).val = (i 1).val; omega

/-- What point `t` writes back is block `t` of `scaleBy` of the two arrays the call finds. -/
theorem scaled_flushed (c : Dev nD) (t : Fin cfg1.N) :
    (dat1 V c).flushed 2 t = ((cfg1.win 2).blk t).view.read (Elt Ideal) (scaleBy (V c main_arg0) (V c main_v0)) := by
  show (cfg1.win 2).cut (grid1.coords t) ((dat1 V c).after 2 t) = _
  rw [after1_2]
  unfold out1_2
  rw [View.canon_unit_zero no_offsets3]
  simp only [View.ld_unit_zero (S := S8x128x2048) no_offsets3, View.ld_unit_zero (S := S8x2048) no_offsets2]
  obtain ⟨e0, e1, e2, e3, e4, e5⟩ := scale_index_maps t
  funext j
  obtain ⟨p, q, l, rfl⟩ : ∃ (p : Fin 8) (q : Fin 128) (l : Fin 2048), j = ix3 p q l :=
    ⟨j 0, j 1, j 2, eq_ix3 (n0 := 8) (n1 := 128) (n2 := 2048) j⟩
  show k1_pay1 (iblk1 V c 0 t) (iblk1 V c 0 t) (iblk1 V c 1 t) (ix3 p q l)
    = scaleBy (V c main_arg0) (V c main_v0) (((cfg1.win 2).blk t).view.emb (ix3 p q l))
  refine (scale_payload_apply (iblk1 V c 0 t) (iblk1 V c 0 t) (iblk1 V c 1 t) p q l).trans ?_
  unfold scaleBy invRoot
  refine congrArg₂ (· * ·) (congrArg₂ (· * ·) ?_ (congrArg Ideal.rsqrt (Finset.sum_congr rfl fun k _ => ?_))) ?_
  · refine scale_matrix_block V c t (ix3 p q l) _ ?_ ?_ ?_
    · show win1_2.index t (0 : Fin 3) * 8 + 1 * p.val = win1_0.index t (0 : Fin 3) * 8 + p.val; omega
    · show win1_2.index t (1 : Fin 3) * 128 + 1 * q.val = win1_0.index t (1 : Fin 3) * 128 + q.val; omega
    · show win1_2.index t (2 : Fin 3) * 2048 + 1 * l.val = win1_0.index t (2 : Fin 3) * 2048 + l.val; omega
  · refine scale_matrix_block V c t (ix3 p q k) _ ?_ ?_ ?_
    · show win1_2.index t (0 : Fin 3) * 8 + 1 * p.val = win1_0.index t (0 : Fin 3) * 8 + p.val; omega
    · show win1_2.index t (1 : Fin 3) * 128 + 1 * q.val = win1_0.index t (1 : Fin 3) * 128 + q.val; omega
    · show k.val = win1_0.index t (2 : Fin 3) * 2048 + k.val; omega
  · refine scale_vector_block V c t (ix2 p l) _ ?_ ?_
    · show win1_2.index t (0 : Fin 3) * 8 + 1 * p.val = win1_1.index t (0 : Fin 2) * 8 + p.val; omega
    · show win1_2.index t (2 : Fin 3) * 2048 + 1 * l.val = win1_1.index t (1 : Fin 2) * 2048 + l.val; omega

/-- An entry of the result array lies in point `t`'s block iff each coordinate is in the block's range. -/
theorem scaled_mem_block (t : Fin cfg1.N) (i : S16x2048x2048.Idx) :
    i ∈ ((cfg1.win 2).blk t).view.set ↔ ∀ a : Fin 3, win1_2.index t a * S8x128x2048.size a ≤ (i a).val ∧ (i a).val < win1_2.index t a * S8x128x2048.size a + S8x128x2048.size a := by
  show i ∈ ((View.whole main_v1).slice (win1_2.rect t)).set ↔ _
  rw [View.set_slice_whole, Rect.mem_set_unit]
  exact Iff.rfl

/-- The blocks tile the array: entry `(b, i, j)` is in the block at batch block `b / 8`, row block `i / 128`. -/
theorem scaled_cover (i : S16x2048x2048.Idx) :
    ∃ t : Fin cfg1.N, (cfg1.win 2).flush t = true ∧ i ∈ ((cfg1.win 2).blk t).view.set := by
  have hi0 : (i 0).val < 16 := (i 0).isLt
  have hi1 : (i 1).val < 2048 := (i 1).isLt
  have hi2 : (i 2).val < 2048 := (i 2).isLt
  obtain ⟨t, ht⟩ := scale_blocks_onto ⟨(i 0).val / 8, by omega⟩ ⟨(i 1).val / 128, by omega⟩
  have q0 : win1_2.index t (0 : Fin 3) = (i 0).val / 8 := congrFun ht 0
  have q1 : win1_2.index t (1 : Fin 3) = (i 1).val / 128 := congrFun ht 1
  have q2 : win1_2.index t (2 : Fin 3) = 0 := congrFun ht 2
  refine ⟨t, flush1_2 t, ?_⟩
  rw [scaled_mem_block]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 128 ≤ (i 1).val ∧ (i 1).val < win1_2.index t (1 : Fin 3) * 128 + 128; omega
  | ⟨2, _⟩ => show win1_2.index t (2 : Fin 3) * 2048 ≤ (i 2).val ∧ (i 2).val < win1_2.index t (2 : Fin 3) * 2048 + 2048; omega

/-- After the second call its result array is `scaleBy` of the matrix and vector arrays it found. -/
theorem scaled_final (c : Dev nD) : (dat1 V c).arrAt 2 cfg1.N = scaleBy (V c main_arg0) (V c main_v0) :=
  (dat1 V c).arrAt_eq_of_cover 2 (scaleBy (V c main_arg0) (V c main_v0)) (fun t _ => scaled_flushed V c t) scaled_cover

end Cert.KernelIdeal.Hand

end
-- ==== Proof.KernelRun.lean ====
/-
  The kernel's whole run on the extended reals: from any launch memory every weakly fair execution of the two
  pallas_calls terminates with the result array at the normalised argument and the argument unchanged.

  The buffer contents at the three boundaries of the run are a fold: at the second call's entry the argument's buffer
  still holds the launched array `x` (the first call only reads it) and the intermediate buffer holds what the first
  call's write-backs leave, which is `degVec x`; at the end the result buffer holds what the second call's write-backs
  leave, which is `scaleBy` of the two arrays it found, that is `scaleBy x (degVec x)`, the normalised array.
-/
import proofs.«120717_j35759897706670_2_alg».proof.Proof.Gen.KernelIdeal.Frame
import proofs.«120717_j35759897706670_2_alg».proof.Proof.Spec
import proofs.«120717_j35759897706670_2_alg».proof.Proof.Degrees
import proofs.«120717_j35759897706670_2_alg».proof.Proof.Scaled

noncomputable section

namespace Cert.KernelIdeal.Hand

open Cert.KernelIdeal Cert.KernelIdeal.Gen Cert.AdjNorm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- At the second call's entry the argument's buffer holds the launched array. -/
theorem second_entry_argument (c : Dev nD) :
    V1 m ρ c main_arg0 = m ((c : Thread nD τ).loc main_arg0) :=
  (W1_arr m ρ c 0).trans (((dat0 (V0 m ρ) c).arrAt_in 0 rfl _).trans (A_eq0 (V0 m ρ) c 0))

/-- At the second call's entry the intermediate buffer holds the launched array's degree vector. -/
theorem second_entry_degrees (c : Dev nD) :
    V1 m ρ c main_v0 = degVec (m ((c : Thread nD τ).loc main_arg0)) :=
  (W1_arr m ρ c 1).trans (degrees_final (V0 m ρ) c)

/-- At the end the result buffer holds the normalised launched array. -/
theorem result_value (c : Dev nD) :
    W2 m ρ c (Proc.devRef .tc main_v1) = normalized (m ((c : Thread nD τ).loc main_arg0)) := by
  refine (W2_arr m ρ c 2).trans ((scaled_final (V1 m ρ) c).trans ?_)
  rw [second_entry_argument, second_entry_degrees]
  rfl

set_option backward.isDefEq.respectTransparency.types false in
/-- The run: the launch over the two regions' segments, the last thread state read against the final memory at the
    result buffer and at the argument's. -/
theorem run : θ_run defs (onTc (τ := τ) (main (F := Ideal))) ⟨m, fun _ => 0, ρ⟩ (fun r => ∀ c : Dev nD,
      r.2.mem ((c.tc : Thread nD τ).loc main_v1) = normalized (m ((c.tc : Thread nD τ).loc main_arg0))
      ∧ r.2.mem ((c.tc : Thread nD τ).loc main_arg0) = m ((c.tc : Thread nD τ).loc main_arg0)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_value m ρ c),
        (h c _ (mem_uc main_arg0 (by decide))).trans (W2_main_arg0 m ρ c)⟩)

end Cert.KernelIdeal.Hand

end
-- ==== Proof.lean ====
/-
  Symmetric degree normalisation `D^{-1/2} A D^{-1/2}` of a batch of 16 dense 2048 × 2048 matrices: the two-pass Pallas
  kernel against the jnp reference, on the extended reals.

  Both programs compute, at `(b, i, j)`, `x[b, i, j] · s_{b,i} · s_{b,j}` with `s_{b,r} = (Σ_k x[b, r, k])^(-1/2)`, the row
  factor multiplied in first. The kernel's first pass writes the vector `s` (each grid point sums whole rows, so no
  sum is split); its second pass recomputes the row factor from the rows it has staged and takes the column factor
  from the vector. The reference sums from the zero word, takes the inverse root once and spreads it both ways. A lane
  sum and a host sum are the same finite sum of extended reals, `0 + s = s`, the inverse root is one function on both
  sides, and the two products are taken in the same order — so the two results are the same term, entry by entry, and
  the precondition's finiteness is never used. The three frames are the generated runs; the idealisation rewrote
  nothing, so `preserves` is trivial.
-/
import proofs.«120717_j35759897706670_2_alg».proof.Defs
import proofs.«120717_j35759897706670_2_alg».proof.Proof.Gen.Kernel
import proofs.«120717_j35759897706670_2_alg».proof.Proof.Gen.Kernel.Skeleton
import proofs.«120717_j35759897706670_2_alg».proof.Proof.Gen.Kernel.Launch
import proofs.«120717_j35759897706670_2_alg».proof.Proof.Gen.Kernel.Points
import proofs.«120717_j35759897706670_2_alg».proof.Proof.Gen.Kernel.Frame
import proofs.«120717_j35759897706670_2_alg».proof.Proof.Gen.KernelIdeal
import proofs.«120717_j35759897706670_2_alg».proof.Proof.Gen.KernelIdeal.Skeleton
import proofs.«120717_j35759897706670_2_alg».proof.Proof.Gen.KernelIdeal.Launch
import proofs.«120717_j35759897706670_2_alg».proof.Proof.Gen.KernelIdeal.Points
import proofs.«120717_j35759897706670_2_alg».proof.Proof.Gen.KernelIdeal.Frame
import proofs.«120717_j35759897706670_2_alg».proof.Proof.Gen.ReferenceIdeal
import proofs.«120717_j35759897706670_2_alg».proof.Proof.Gen.Pre_finite_inputs
import proofs.«120717_j35759897706670_2_alg».proof.Proof.Gen.ReferenceIdeal.Run
import proofs.«120717_j35759897706670_2_alg».proof.Proof.Gen.ReferenceIdeal.Read
import proofs.«120717_j35759897706670_2_alg».proof.Proof.Spec
import proofs.«120717_j35759897706670_2_alg».proof.Proof.RefValue
import proofs.«120717_j35759897706670_2_alg».proof.Proof.KernelRun
import Idealize.ShloMosaic.Adequacy
import Idealize.ShloMosaic.Init

noncomputable section

namespace Cert.Proof

open Idealize.ShloMosaic Idealize.SL.Sem

/-- The word-level kernel runs and leaves its argument as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the argument both programs end with the normalised argument in their result arrays. -/
theorem algebraic : Cert.algebraic_KernelIdeal_ReferenceIdeal := by
  intro m ρ m' ρ' _ hagree
  refine ⟨fun c => Cert.AdjNorm.normalized (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
